-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x256 : Shape := ⟨2, ![320000, 256]⟩
abbrev S320000 : Shape := ⟨1, ![320000]⟩
abbrev S1x256 : Shape := ⟨2, ![1, 256]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S1x256 .f32) (main_arg7 : FVec F S1 .f32) (main_arg8 : FVec F S1x256 .f32) (main_arg9 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1x256 .f32 := Host.absf main_arg6
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x256 .f32 := Host.absf main_arg8
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg9 main_v33

def fn {F : FTy → Type} [FloatOps F] (main_arg0 : FVec F S10000x256 .f32) (main_arg1 : FVec F S320000x256 .f32) (main_arg2 : IVec S320000 32) (main_arg3 : IVec S320000 32) (main_arg4 : FVec F S1x256 .f32) (main_arg5 : FVec F S1 .f32) (main_arg6 : FVec F S1x256 .f32) (main_arg7 : FVec F S1 .f32) (main_arg8 : FVec F S1x256 .f32) (main_arg9 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S1x256 .f32 := Host.absf main_arg4
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_arg8 main_arg9 main_v13 main_v16
-- ==== Kernel.lean ====
abbrev S10000x256 : Shape := ⟨2, ![10000, 256]⟩
abbrev S320000x256 : Shape := ⟨2, ![320000, 256]⟩
abbrev S320000 : Shape := ⟨1, ![320000]⟩
abbrev S1x256 : Shape := ⟨2, ![1, 256]⟩
abbrev S1 : Shape := ⟨1, ![1]⟩
abbrev S2x256 : Shape := ⟨2, ![2, 256]⟩
abbrev S2 : Shape := ⟨1, ![2]⟩
abbrev S1x2 : Shape := ⟨2, ![1, 2]⟩
abbrev S10000x2 : Shape := ⟨2, ![10000, 2]⟩
abbrev S256x2 : Shape := ⟨2, ![256, 2]⟩
abbrev S10000x1 : Shape := ⟨2, ![10000, 1]⟩
abbrev S10000 : Shape := ⟨1, ![10000]⟩
abbrev S_ : Shape := ⟨0, ![]⟩
abbrev S320000x1 : Shape := ⟨2, ![320000, 1]⟩
abbrev S1x1 : Shape := ⟨2, ![1, 1]⟩
abbrev S8000x256 : Shape := ⟨2, ![8000, 256]⟩
abbrev S8000x1 : Shape := ⟨2, ![8000, 1]⟩
abbrev S256x1 : Shape := ⟨2, ![256, 1]⟩

abbrev nBuf : Space → Nat
  | .hbm => 40
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S1x256, .f32⟩
  | .hbm, ⟨5, _⟩ => ⟨S1, .f32⟩
  | .hbm, ⟨6, _⟩ => ⟨S1x256, .f32⟩
  | .hbm, ⟨7, _⟩ => ⟨S1, .f32⟩
  | .hbm, ⟨8, _⟩ => ⟨S1x256, .f32⟩
  | .hbm, ⟨9, _⟩ => ⟨S1, .f32⟩
  | .hbm, ⟨10, _⟩ => ⟨S2x256, .f32⟩
  | .hbm, ⟨11, _⟩ => ⟨S2, .f32⟩
  | .hbm, ⟨12, _⟩ => ⟨S1x2, .f32⟩
  | .hbm, ⟨13, _⟩ => ⟨S10000x2, .f32⟩
  | .hbm, ⟨14, _⟩ => ⟨S10000x1, .f32⟩
  | .hbm, ⟨15, _⟩ => ⟨S10000, .f32⟩
  | .hbm, ⟨16, _⟩ => ⟨S10000x1, .f32⟩
  | .hbm, ⟨17, _⟩ => ⟨S10000, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000, .f32⟩
  | .hbm, ⟨36, _⟩ => ⟨S320000, .f32⟩
  | .hbm, ⟨37, _⟩ => ⟨S320000x1, .f32⟩
  | .hbm, ⟨38, _⟩ => ⟨S1x1, .f32⟩
  | .hbm, ⟨39, _⟩ => ⟨S320000x1, .f32⟩
  | .local _ .vmem, ⟨0, _⟩ => ⟨S10000x256, .f32⟩
  | .local _ .vmem, ⟨1, _⟩ => ⟨S2x256, .f32⟩
  | .local _ .vmem, ⟨2, _⟩ => ⟨S1x2, .f32⟩
  | .local _ .vmem, ⟨3, _⟩ => ⟨S10000x2, .f32⟩
  | .local _ .vmem, ⟨4, _⟩ => ⟨S8000x256, .f32⟩
  | .local _ .vmem, ⟨5, _⟩ => ⟨S8000x256, .f32⟩
  | .local _ .vmem, ⟨6, _⟩ => ⟨S8000x1, .f32⟩
  | .local _ .vmem, ⟨7, _⟩ => ⟨S8000x1, .f32⟩
  | .local _ .vmem, ⟨8, _⟩ => ⟨S1x256, .f32⟩
  | .local _ .vmem, ⟨9, _⟩ => ⟨S1x1, .f32⟩
  | .local _ .vmem, ⟨10, _⟩ => ⟨S8000x1, .f32⟩
  | .local _ .vmem, ⟨11, _⟩ => ⟨S8000x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S1x256_S1x256_S2x256_d0 : Shape.Concatenates [S1x256, S1x256] S2x256 0
  concatenates_S1_S1_S2_d0 : Shape.Concatenates [S1, S1] S2 0
  shapeCasts_S2_S1x2 : S2.ShapeCasts S1x2
  inb_S10000x256_S10000x256_0_0 : ∀ a, (![0, 0] : Fin 2 → Nat) a + S10000x256.size a ≤ S10000x256.size a
  h_S10000x256 : 0 < S10000x256.numel
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S1x2_S1x2_0_0 : ∀ a, (![0, 0] : Fin 2 → Nat) a + S1x2.size a ≤ S1x2.size a
  h_S1x2 : 0 < S1x2.numel
  shapeCasts_S1x2_S1x2 : S1x2.ShapeCasts S1x2
  bitsLt_bf16_f32 : FTy.bits .bf16 < FTy.bits .f32
  transposes_S2x256_p1_0_S256x2 : S2x256.Transposes [1, 0] S256x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  slices_S10000x2_S10000x1_0_0 : S10000x2.Slices ![0, 0] S10000x1
  shapeCasts_S10000x1_S10000 : S10000x1.ShapeCasts S10000
  slices_S10000x2_S10000x1_0_1 : S10000x2.Slices ![0, 1] S10000x1
  bcast_S_S320000 : S_.BroadcastsInDim S320000 (![] : Fin 0 → Fin S320000.rank)
  bcast_S320000_S320000x1_0 : S320000.BroadcastsInDim S320000x1 (![0] : Fin 1 → Fin S320000x1.rank)
  shapeCasts_S320000_S320000x1 : S320000.ShapeCasts S320000x1
  shapeCasts_S1_S1x1 : S1.ShapeCasts S1x1
  inb_S8000x256_S8000x256_0_0 : ∀ a, (![0, 0] : Fin 2 → Nat) a + S8000x256.size a ≤ S8000x256.size a
  h_S8000x256 : 0 < S8000x256.numel
  inb_S1x256_S1x256_0_0 : ∀ a, (![0, 0] : Fin 2 → Nat) a + S1x256.size a ≤ S1x256.size a
  h_S1x256 : 0 < S1x256.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x256_p1_0_S256x1 : S1x256.Transposes [1, 0] S256x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  dot_S10000x256_S256x2_S10000x2_1_0_0_1_n_n_wf : DotDims.WF S10000x256 S256x2 S10000x2 [1] [0] [0] [1] [] []
  gather_S10000_S320000x1_S320000_n_0_n_n_0_1_1_wf : GatherDims.WF S10000 S320000x1 S320000 [] [0] [] [0] [] 1 ![1]
  dot_S8000x256_S256x1_S8000x1_1_0_0_1_n_n_wf : DotDims.WF S8000x256 S256x1 S8000x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256.size a ≤ S2x256.size a
  hwx0_1 : ∀ i : grid0.Coords, EltTy.bits .f32 = 32 ∨ (Rect.block (s := S2x256) S2x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x2.size a ≤ S10000x2.size a
  hwx0_3 : ∀ i : grid0.Coords, EltTy.bits .f32 = 32 ∨ (Rect.block (s := S10000x2) S10000x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x256.size a ≤ S320000x256.size a
  hwx1_0 : ∀ i : grid1.Coords, EltTy.bits .f32 = 32 ∨ (Rect.block (s := S320000x256) S8000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S320000x1.size a
  hwx1_1 : ∀ i : grid1.Coords, EltTy.bits .f32 = 32 ∨ (Rect.block (s := S320000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x1.size a ≤ S320000x1.size a
  hwx1_4 : ∀ i : grid1.Coords, EltTy.bits .f32 = 32 ∨ (Rect.block (s := S320000x1) S8000x1.size (cc1_transform_4 i) (hinb1_4 i)).WholeWords (EltTy.packing .f32)

variable [Facts₀]

def dot_S10000x256_S256x2_S10000x2_1_0_0_1_n_n : DotDims S10000x256 S256x2 S10000x2 where
  lhsContracting := [1]
  rhsContracting := [0]
  lhsNonContracting := [0]
  rhsNonContracting := [1]
  lhsBatch := []
  rhsBatch := []
  wf := dot_S10000x256_S256x2_S10000x2_1_0_0_1_n_n_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S8000x256_S256x1_S8000x1_1_0_0_1_n_n : DotDims S8000x256 S256x1 S8000x1 where
  lhsContracting := [1]
  rhsContracting := [0]
  lhsNonContracting := [0]
  rhsNonContracting := [1]
  lhsBatch := []
  rhsBatch := []
  wf := dot_S8000x256_S256x1_S8000x1_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S10000x2.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S8000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x256 : Shape := ⟨2, ![10000, 256]⟩
abbrev S320000x256 : Shape := ⟨2, ![320000, 256]⟩
abbrev S320000 : Shape := ⟨1, ![320000]⟩
abbrev S1x256 : Shape := ⟨2, ![1, 256]⟩
abbrev S1 : Shape := ⟨1, ![1]⟩
abbrev S256x1 : Shape := ⟨2, ![256, 1]⟩
abbrev S10000x1 : Shape := ⟨2, ![10000, 1]⟩
abbrev S1x1 : Shape := ⟨2, ![1, 1]⟩
abbrev S_ : Shape := ⟨0, ![]⟩
abbrev S320000x1 : Shape := ⟨2, ![320000, 1]⟩

abbrev nBuf : Space → Nat
  | .hbm => 53
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S1x256, .f32⟩
  | .hbm, ⟨5, _⟩ => ⟨S1, .f32⟩
  | .hbm, ⟨6, _⟩ => ⟨S1x256, .f32⟩
  | .hbm, ⟨7, _⟩ => ⟨S1, .f32⟩
  | .hbm, ⟨8, _⟩ => ⟨S1x256, .f32⟩
  | .hbm, ⟨9, _⟩ => ⟨S1, .f32⟩
  | .hbm, ⟨10, _⟩ => ⟨S256x1, .f32⟩
  | .hbm, ⟨11, _⟩ => ⟨S10000x1, .f32⟩
  | .hbm, ⟨12, _⟩ => ⟨S1x1, .f32⟩
  | .hbm, ⟨13, _⟩ => ⟨S10000x1, .f32⟩
  | .hbm, ⟨14, _⟩ => ⟨S10000x1, .f32⟩
  | .hbm, ⟨15, _⟩ => ⟨S256x1, .f32⟩
  | .hbm, ⟨16, _⟩ => ⟨S10000x1, .f32⟩
  | .hbm, ⟨17, _⟩ => ⟨S1x1, .f32⟩
  | .hbm, ⟨18, _⟩ => ⟨S10000x1, .f32⟩
  | .hbm, ⟨19, _⟩ => ⟨S10000x1, .f32⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x1, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x1, .f32⟩
  | .hbm, ⟨38, _⟩ => ⟨S320000x1, .f32⟩
  | .hbm, ⟨39, _⟩ => ⟨S256x1, .f32⟩
  | .hbm, ⟨40, _⟩ => ⟨S320000x1, .f32⟩
  | .hbm, ⟨41, _⟩ => ⟨S1x1, .f32⟩
  | .hbm, ⟨42, _⟩ => ⟨S320000x1, .f32⟩
  | .hbm, ⟨43, _⟩ => ⟨S320000x1, .f32⟩
  | .hbm, ⟨44, _⟩ => ⟨S320000x1, .f32⟩
  | .hbm, ⟨45, _⟩ => ⟨S320000x1, .f32⟩
  | .hbm, ⟨46, _⟩ => ⟨S320000x1, .f32⟩
  | .hbm, ⟨47, _⟩ => ⟨S_, .f32⟩
  | .hbm, ⟨48, _⟩ => ⟨S320000x1, .f32⟩
  | .hbm, ⟨49, _⟩ => ⟨S320000x1, .f32⟩
  | .hbm, ⟨50, _⟩ => ⟨S_, .f32⟩
  | .hbm, ⟨51, _⟩ => ⟨S320000x1, .f32⟩
  | .hbm, ⟨52, _⟩ => ⟨S320000x1, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  transposes_S1x256_S256x1_1_0 : S1x256.Transposes [1, 0] S256x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S320000 : S_.BroadcastsInDim S320000 (![] : Fin 0 → Fin S320000.rank)
  bcast_S320000_S320000x1_0 : S320000.BroadcastsInDim S320000x1 (![0] : Fin 1 → Fin S320000x1.rank)
  bcast_S1x1_S320000x1_0_1 : S1x1.BroadcastsInDim S320000x1 (![0, 1] : Fin 2 → Fin S320000x1.rank)
  bcast_S_S320000x1 : S_.BroadcastsInDim S320000x1 (![] : Fin 0 → Fin S320000x1.rank)
  dot_S10000x256_S256x1_S10000x1_1_0_0_1_n_n_wf : DotDims.WF S10000x256 S256x1 S10000x1 [1] [0] [0] [1] [] []
  gather_S10000x1_S320000x1_S320000x1_1_0_n_n_0_1_11_wf : GatherDims.WF S10000x1 S320000x1 S320000x1 [1] [0] [] [0] [] 1 ![1, 1]
  dot_S320000x256_S256x1_S320000x1_1_0_0_1_n_n_wf : DotDims.WF S320000x256 S256x1 S320000x1 [1] [0] [0] [1] [] []

variable [Facts₀]

def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf
def dot_S320000x256_S256x1_S320000x1_1_0_0_1_n_n : DotDims S320000x256 S256x1 S320000x1 where
  lhsContracting := [1]
  rhsContracting := [0]
  lhsNonContracting := [0]
  rhsNonContracting := [1]
  lhsBatch := []
  rhsBatch := []
  wf := dot_S320000x256_S256x1_S320000x1_1_0_0_1_n_n_wf

class Facts : Prop extends Facts₀ where

variable [Facts]
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Bodies.lean ====
/-
  The two kernel bodies' arithmetic, read at an index on the extended reals.

  The node body multiplies the feature block `[10000, 256]` by the transpose of the stacked weight rows `[2, 256]` into a
  zero accumulator and adds the bias row: entry `(n, j)` is row `n` of the features against weight row `j`, plus bias
  `j`. The edge body does the same for one weight row over a block of 8000 edges, adds the block of gathered node gates
  in front, and applies the logistic function. Narrowing a float to a shorter format is the identity on the extended
  reals, so the products are the exact ones.
-/
import proofs.«102178_j64407329571242_2_alg».proof.Proof.Gen.KernelIdeal.Skeleton
import proofs.«102178_j64407329571242_2_alg».proof.Proof.LibMatDot
import Idealize.ShloMosaic.Lib.ValueLayout
import Idealize.ShloMosaic.Lib.Pipeline.Value
import Idealize.ShloMosaic.Lib.ValueIdx

noncomputable section

namespace Cert.KernelIdeal.Bodies

open Idealize.ShloMosaic Idealize.ShloMosaic.ValueIdx Cert.KernelIdeal Cert.KernelIdeal.Gen
open scoped BigOperators

/-- The node body's stored value at `(n, j)`: feature row `n` against weight row `j`, plus bias `j`. -/
theorem node_pay (x0 : Vec Ideal S10000x256 .f32) (x1 : Vec Ideal S2x256 .f32) (x2 : Vec Ideal S1x2 .f32)
    (n : Fin 10000) (j : Fin 2) :
    k0_pay1 (F := Ideal) x0 x1 x2 (ix2 n j)
      = (∑ k : Fin 256, x0 (ix2 n k) * x1 (ix2 j k)) + x2 (ix2 (0 : Fin 1) j) := by
  unfold k0_pay1
  dsimp only
  rw [addf_apply]
  have hm : matmul (F := Ideal) dot_S10000x256_S256x2_S10000x2_1_0_0_1_n_n none (truncf FTy.bf16 x0 bitsLt_bf16_f32)
      (transpose S256x2 [1, 0] (truncf FTy.bf16 (shapeCast S2x256 x1 shapeCasts_S2x256_S2x256) bitsLt_bf16_f32)
        transposes_S2x256_p1_0_S256x2)
      (constant S10000x2 FTy.f32 0#32) (ix2 n j) = ∑ k : Fin 256, x0 (ix2 n k) * x1 (ix2 j k) := by
    refine (Cert.Lib.matmul_plain_zero_apply (a := 10000) (K := 256) (b := 2) _ none _ _ n j).trans ?_
    refine Finset.sum_congr rfl fun k _ => ?_
    rw [truncf_apply, transpose_ix2_apply, truncf_apply, shapeCast_self]
  rw [hm, broadcastTo_1b_ab_apply, shapeCast_self]

/-- The edge body's stored value at `(r, u)`: the logistic function of the gathered gate at `r` plus (edge row `r`
    against the weight row, plus the bias). -/
theorem edge_pay (x0 : Vec Ideal S8000x256 .f32) (x1 : Vec Ideal S1x256 .f32) (x2 : Vec Ideal S1x1 .f32)
    (x10 : Vec Ideal S8000x1 .f32) (r : Fin 8000) (u : Fin 1) :
    k1_pay1 (F := Ideal) x0 x1 x2 x10 (ix2 r u)
      = Ideal.logistic (x10 (ix2 r u)
          + ((∑ k : Fin 256, x0 (ix2 r k) * x1 (ix2 (0 : Fin 1) k)) + x2 (ix2 (0 : Fin 1) (0 : Fin 1)))) := by
  unfold k1_pay1
  dsimp only
  show Ideal.logistic _ = _
  congr 1
  rw [addf_apply, addf_apply, shapeCast_self]
  have hm : matmul (F := Ideal) dot_S8000x256_S256x1_S8000x1_1_0_0_1_n_n none (truncf FTy.bf16 x0 bitsLt_bf16_f32)
      (transpose S256x1 [1, 0] (truncf FTy.bf16 x1 bitsLt_bf16_f32) transposes_S1x256_p1_0_S256x1)
      (constant S8000x1 FTy.f32 0#32) (ix2 r u) = ∑ k : Fin 256, x0 (ix2 r k) * x1 (ix2 (0 : Fin 1) k) := by
    refine (Cert.Lib.matmul_plain_zero_apply (a := 8000) (K := 256) (b := 1) _ none _ _ r u).trans ?_
    refine Finset.sum_congr rfl fun k _ => ?_
    rw [truncf_apply, transpose_ix2_apply, truncf_apply]
    obtain rfl : u = 0 := Subsingleton.elim _ _
    rfl
  rw [hm, broadcastTo_1b_ab_apply, shapeCast_self]
  obtain rfl : u = 0 := Subsingleton.elim _ _
  rfl

end Cert.KernelIdeal.Bodies

end
-- ==== Proof.Regions.lean ====
/-
  What each of the two kernel launches leaves in its output array, as one function of the arrays it is launched on.

  The node launch has a single grid point whose blocks are the whole arrays: its output `[10000, 2]` ends holding, at
  `(n, j)`, feature row `n` against stacked weight row `j` plus bias `j`. The edge launch walks 40 grid points; point
  `t` reads rows `8000·t … 8000·t + 7999` of the edge features and of the gathered-gate column, and the whole weight row
  and bias, and writes the same rows of the output. Row `e` lies in the block of point `e / 8000`, so the 40 blocks cover
  the output, which ends holding, at `(e, 0)`, the logistic function of the gathered gate at `e` plus (edge row `e` against
  the weight row, plus the bias).
-/
import proofs.«102178_j64407329571242_2_alg».proof.Proof.Gen.KernelIdeal.Frame
import proofs.«102178_j64407329571242_2_alg».proof.Proof.Bodies

set_option maxRecDepth 16384

noncomputable section

namespace Cert.KernelIdeal.Regions

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

-- the buffer contents the region is entered with
variable (V : (c : Dev nD) → (b : Ref sig .tc) → Buf (Elt Ideal) ((c : Thread nD τ).loc b))

theorem hz : (![0, 0] : Fin 2 → Nat) = fun _ => 0 := funext fun a => by fin_cases a <;> rfl

/-! ## The node launch -/

/-- The node gates as one array: at `(n, j)`, feature row `n` against weight row `j`, plus bias `j`. -/
def nodeGates (A : Vec Ideal S10000x256 .f32) (Wc : Vec Ideal S2x256 .f32) (B : Vec Ideal S1x2 .f32) :
    Vec Ideal S10000x2 .f32 := fun i =>
  (∑ k : Fin 256, A (ix2 (⟨(i 0).val, idx2_lt0 i⟩ : Fin 10000) k) * Wc (ix2 (⟨(i 1).val, idx2_lt1 i⟩ : Fin 2) k))
    + B (ix2 (0 : Fin 1) (⟨(i 1).val, idx2_lt1 i⟩ : Fin 2))

theorem nodeGates_apply (A : Vec Ideal S10000x256 .f32) (Wc : Vec Ideal S2x256 .f32) (B : Vec Ideal S1x2 .f32)
    (n : Fin 10000) (j : Fin 2) :
    nodeGates A Wc B (ix2 n j) = (∑ k : Fin 256, A (ix2 n k) * Wc (ix2 j k)) + B (ix2 (0 : Fin 1) j) := rfl

/-- The one grid point's block indices are all zero. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The feature block is the feature array. -/
theorem blk0_0 (c : Dev nD) (t : Fin cfg0.N) (n : Fin 10000) (k : Fin 256) :
    iblk0 V c 0 t (ix2 n k) = V c main_arg0 (ix2 n k) := by
  obtain ⟨e0, e1, -⟩ := idx_facts0 t
  show V c main_arg0 (((cfg0.win 0).blk t).view.emb (ix2 n k)) = V c main_arg0 (ix2 n k)
  refine congrArg _ (funext fun a => Fin.ext ?_)
  match a with
  | ⟨0, _⟩ => show win0_0.index t (0 : Fin 2) * 10000 + 1 * n.val = n.val; omega
  | ⟨1, _⟩ => show win0_0.index t (1 : Fin 2) * 256 + 1 * k.val = k.val; omega

/-- The weight block is the stacked weight array. -/
theorem blk0_1 (c : Dev nD) (t : Fin cfg0.N) (j : Fin 2) (k : Fin 256) :
    iblk0 V c 1 t (ix2 j k) = V c main_v0 (ix2 j k) := by
  obtain ⟨-, -, e0, e1, -⟩ := idx_facts0 t
  show V c main_v0 (((cfg0.win 1).blk t).view.emb (ix2 j k)) = V c main_v0 (ix2 j k)
  refine congrArg _ (funext fun a => Fin.ext ?_)
  match a with
  | ⟨0, _⟩ => show win0_1.index t (0 : Fin 2) * 2 + 1 * j.val = j.val; omega
  | ⟨1, _⟩ => show win0_1.index t (1 : Fin 2) * 256 + 1 * k.val = k.val; omega

/-- The bias block is the bias row. -/
theorem blk0_2 (c : Dev nD) (t : Fin cfg0.N) (u : Fin 1) (j : Fin 2) :
    iblk0 V c 2 t (ix2 u j) = V c main_v2 (ix2 u j) := by
  obtain ⟨-, -, -, -, e0, e1, -⟩ := idx_facts0 t
  show V c main_v2 (((cfg0.win 2).blk t).view.emb (ix2 u j)) = V c main_v2 (ix2 u j)
  refine congrArg _ (funext fun a => Fin.ext ?_)
  match a with
  | ⟨0, _⟩ => show win0_2.index t (0 : Fin 2) * 1 + 1 * u.val = u.val; omega
  | ⟨1, _⟩ => show win0_2.index t (1 : Fin 2) * 2 + 1 * j.val = j.val; omega

/-- What the one point writes back is the node gates of the arrays the launch finds. -/
theorem flushed0 (c : Dev nD) (t : Fin cfg0.N) :
    (dat0 V c).flushed 3 t
      = ((cfg0.win 3).blk t).view.read (Elt Ideal) (nodeGates (V c main_arg0) (V c main_v0) (V c main_v2)) := by
  show (cfg0.win 3).cut (grid0.coords t) ((dat0 V c).after 3 t) = _
  rw [after0_3]
  unfold out0_3
  rw [View.canon_unit_zero hz]
  simp only [View.ld_unit_zero (S := S10000x256) hz, View.ld_unit_zero (S := S2x256) hz, View.ld_unit_zero (S := S1x2) hz]
  obtain ⟨-, -, -, -, -, -, e6, e7⟩ := idx_facts0 t
  funext y
  obtain ⟨n, j, rfl⟩ : ∃ (n : Fin 10000) (j : Fin 2), y = ix2 n j := ⟨y 0, y 1, eq_ix2 (n0 := 10000) (n1 := 2) y⟩
  have he : ((cfg0.win 3).blk t).view.emb (ix2 n j) = ix2 n j := by
    funext a; apply Fin.ext
    match a with
    | ⟨0, _⟩ => show win0_3.index t (0 : Fin 2) * 10000 + 1 * n.val = n.val; omega
    | ⟨1, _⟩ => show win0_3.index t (1 : Fin 2) * 2 + 1 * j.val = j.val; omega
  show k0_pay1 (iblk0 V c 0 t) (iblk0 V c 1 t) (iblk0 V c 2 t) (ix2 n j)
    = nodeGates (V c main_arg0) (V c main_v0) (V c main_v2) (((cfg0.win 3).blk t).view.emb (ix2 n j))
  rw [he, nodeGates_apply]
  refine (Bodies.node_pay _ _ _ n j).trans ?_
  rw [blk0_2 V c t 0 j]
  refine congrArg (· + _) (Finset.sum_congr rfl fun k _ => ?_)
  rw [blk0_0 V c t n k, blk0_1 V c t j k]

/-- An index is in the point's block iff each coordinate is in the block's range. -/
theorem mem_blk0 (t : Fin cfg0.N) (i : S10000x2.Idx) :
    i ∈ ((cfg0.win 3).blk t).view.set ↔ ∀ a : Fin 2, win0_3.index t a * S10000x2.size a ≤ (i a).val
      ∧ (i a).val < win0_3.index t a * S10000x2.size a + S10000x2.size a := by
  show i ∈ ((View.whole main_v3).slice (win0_3.rect t)).set ↔ _
  rw [View.set_slice_whole, Rect.mem_set_unit]
  exact Iff.rfl

/-- The one block is the whole output. -/
theorem cover0 (i : S10000x2.Idx) :
    ∃ t : Fin cfg0.N, (cfg0.win 3).flush t = true ∧ i ∈ ((cfg0.win 3).blk t).view.set := by
  refine ⟨t0_0, flush0_3 _, ?_⟩
  rw [mem_blk0]
  obtain ⟨-, -, -, -, -, -, e6, e7⟩ := idx_facts0 t0_0
  have h0 : (i 0).val < 10000 := (i 0).isLt
  have h1 : (i 1).val < 2 := (i 1).isLt
  intro a
  match a with
  | ⟨0, _⟩ =>
    show win0_3.index t0_0 (0 : Fin 2) * 10000 ≤ (i 0).val ∧ (i 0).val < win0_3.index t0_0 (0 : Fin 2) * 10000 + 10000
    omega
  | ⟨1, _⟩ =>
    show win0_3.index t0_0 (1 : Fin 2) * 2 ≤ (i 1).val ∧ (i 1).val < win0_3.index t0_0 (1 : Fin 2) * 2 + 2
    omega

/-- THE NODE LAUNCH'S OUTPUT after the launch: the node gates of the arrays it was launched on. -/
theorem final0 (c : Dev nD) :
    (dat0 V c).arrAt 3 cfg0.N = nodeGates (V c main_arg0) (V c main_v0) (V c main_v2) :=
  (dat0 V c).arrAt_eq_of_cover 3 _ (fun t _ => flushed0 V c t) cover0

/-! ## The edge launch -/

/-- The edge scores as one array: at `(e, u)`, the logistic function of the gathered gate plus the edge's own gate. -/
def edgeScores (E : Vec Ideal S320000x256 .f32) (g : Vec Ideal S320000x1 .f32) (W : Vec Ideal S1x256 .f32)
    (b : Vec Ideal S1x1 .f32) : Vec Ideal S320000x1 .f32 := fun i =>
  Ideal.logistic (g (ix2 (⟨(i 0).val, idx2_lt0 i⟩ : Fin 320000) (⟨(i 1).val, idx2_lt1 i⟩ : Fin 1))
    + ((∑ k : Fin 256, E (ix2 (⟨(i 0).val, idx2_lt0 i⟩ : Fin 320000) k) * W (ix2 (0 : Fin 1) k))
        + b (ix2 (0 : Fin 1) (0 : Fin 1))))

theorem edgeScores_apply (E : Vec Ideal S320000x256 .f32) (g : Vec Ideal S320000x1 .f32) (W : Vec Ideal S1x256 .f32)
    (b : Vec Ideal S1x1 .f32) (e : Fin 320000) (u : Fin 1) :
    edgeScores E g W b (ix2 e u) = Ideal.logistic (g (ix2 e u)
      + ((∑ k : Fin 256, E (ix2 e k) * W (ix2 (0 : Fin 1) k)) + b (ix2 (0 : Fin 1) (0 : Fin 1)))) := rfl

/-- Point `t` takes block row `t` of the edge features, of the gathered gates and of the output, and block `(0, 0)` of
    the weight row and the bias. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `r` of point `t`'s feature block is row `8000·t + r` of the edge features. -/
theorem blk1_0 (c : Dev nD) (t : Fin cfg1.N) (r : Fin 8000) (k : Fin 256) (e : Fin 320000)
    (he : e.val = t.val * 8000 + r.val) : iblk1 V c 0 t (ix2 r k) = V c main_arg1 (ix2 e k) := by
  obtain ⟨e0, e1, -⟩ := idx_facts1 t
  show V c main_arg1 (((cfg1.win 0).blk t).view.emb (ix2 r k)) = V c main_arg1 (ix2 e k)
  refine congrArg _ (funext fun a => Fin.ext ?_)
  match a with
  | ⟨0, _⟩ => show win1_0.index t (0 : Fin 2) * 8000 + 1 * r.val = e.val; omega
  | ⟨1, _⟩ => show win1_0.index t (1 : Fin 2) * 256 + 1 * k.val = k.val; omega

/-- Row `r` of point `t`'s gathered-gate block is row `8000·t + r` of the gathered gates. -/
theorem blk1_1 (c : Dev nD) (t : Fin cfg1.N) (r : Fin 8000) (u : Fin 1) (e : Fin 320000)
    (he : e.val = t.val * 8000 + r.val) : iblk1 V c 1 t (ix2 r u) = V c main_v23 (ix2 e u) := by
  obtain ⟨-, -, e0, e1, -⟩ := idx_facts1 t
  show V c main_v23 (((cfg1.win 1).blk t).view.emb (ix2 r u)) = V c main_v23 (ix2 e u)
  refine congrArg _ (funext fun a => Fin.ext ?_)
  match a with
  | ⟨0, _⟩ => show win1_1.index t (0 : Fin 2) * 8000 + 1 * r.val = e.val; omega
  | ⟨1, _⟩ => show win1_1.index t (1 : Fin 2) * 1 + 1 * u.val = u.val; omega

/-- The weight block is the weight row. -/
theorem blk1_2 (c : Dev nD) (t : Fin cfg1.N) (u : Fin 1) (k : Fin 256) :
    iblk1 V c 2 t (ix2 u k) = V c main_arg8 (ix2 u k) := by
  obtain ⟨-, -, -, -, e0, e1, -⟩ := idx_facts1 t
  show V c main_arg8 (((cfg1.win 2).blk t).view.emb (ix2 u k)) = V c main_arg8 (ix2 u k)
  refine congrArg _ (funext fun a => Fin.ext ?_)
  match a with
  | ⟨0, _⟩ => show win1_2.index t (0 : Fin 2) * 1 + 1 * u.val = u.val; omega
  | ⟨1, _⟩ => show win1_2.index t (1 : Fin 2) * 256 + 1 * k.val = k.val; omega

/-- The bias block is the bias. -/
theorem blk1_3 (c : Dev nD) (t : Fin cfg1.N) (u v : Fin 1) :
    iblk1 V c 3 t (ix2 u v) = V c main_v24 (ix2 u v) := by
  obtain ⟨-, -, -, -, -, -, e0, e1, -⟩ := idx_facts1 t
  show V c main_v24 (((cfg1.win 3).blk t).view.emb (ix2 u v)) = V c main_v24 (ix2 u v)
  refine congrArg _ (funext fun a => Fin.ext ?_)
  match a with
  | ⟨0, _⟩ => show win1_3.index t (0 : Fin 2) * 1 + 1 * u.val = u.val; omega
  | ⟨1, _⟩ => show win1_3.index t (1 : Fin 2) * 1 + 1 * v.val = v.val; omega

/-- What point `t` writes back is its block of the edge scores of the arrays the launch finds. -/
theorem flushed1 (c : Dev nD) (t : Fin cfg1.N) :
    (dat1 V c).flushed 4 t
      = ((cfg1.win 4).blk t).view.read (Elt Ideal)
          (edgeScores (V c main_arg1) (V c main_v23) (V c main_arg8) (V c main_v24)) := by
  show (cfg1.win 4).cut (grid1.coords t) ((dat1 V c).after 4 t) = _
  rw [after1_4]
  unfold out1_4
  rw [View.canon_unit_zero hz]
  simp only [View.ld_unit_zero (S := S8000x256) hz, View.ld_unit_zero (S := S8000x1) hz,
    View.ld_unit_zero (S := S1x256) hz, View.ld_unit_zero (S := S1x1) hz]
  obtain ⟨-, -, -, -, -, -, -, -, e8, e9⟩ := idx_facts1 t
  have ht : t.val < 40 := lt_of_lt_of_eq t.isLt N_1
  funext y
  obtain ⟨r, u, rfl⟩ : ∃ (r : Fin 8000) (u : Fin 1), y = ix2 r u := ⟨y 0, y 1, eq_ix2 (n0 := 8000) (n1 := 1) y⟩
  have hr : r.val < 8000 := r.isLt
  let e : Fin 320000 := ⟨t.val * 8000 + r.val, by omega⟩
  have he : ((cfg1.win 4).blk t).view.emb (ix2 r u) = ix2 e u := by
    funext a; apply Fin.ext
    match a with
    | ⟨0, _⟩ => show win1_4.index t (0 : Fin 2) * 8000 + 1 * r.val = t.val * 8000 + r.val; omega
    | ⟨1, _⟩ => show win1_4.index t (1 : Fin 2) * 1 + 1 * u.val = u.val; omega
  show k1_pay1 (iblk1 V c 0 t) (iblk1 V c 2 t) (iblk1 V c 3 t) (iblk1 V c 1 t) (ix2 r u)
    = edgeScores (V c main_arg1) (V c main_v23) (V c main_arg8) (V c main_v24) (((cfg1.win 4).blk t).view.emb (ix2 r u))
  rw [he, edgeScores_apply]
  refine (Bodies.edge_pay _ _ _ _ r u).trans ?_
  rw [blk1_1 V c t r u e rfl, blk1_3 V c t 0 0]
  refine congrArg (fun s => Ideal.logistic (_ + (s + _))) (Finset.sum_congr rfl fun k _ => ?_)
  rw [blk1_0 V c t r k e rfl, blk1_2 V c t 0 k]

/-- An index is in point `t`'s block iff each coordinate is in the block's range. -/
theorem mem_blk1 (t : Fin cfg1.N) (i : S320000x1.Idx) :
    i ∈ ((cfg1.win 4).blk t).view.set ↔ ∀ a : Fin 2, win1_4.index t a * S8000x1.size a ≤ (i a).val
      ∧ (i a).val < win1_4.index t a * S8000x1.size a + S8000x1.size a := by
  show i ∈ ((View.whole main_v25).slice (win1_4.rect t)).set ↔ _
  rw [View.set_slice_whole, Rect.mem_set_unit]
  exact Iff.rfl

/-- Row `e` is in the block of point `e / 8000`: the 40 blocks cover the output. -/
theorem cover1 (i : S320000x1.Idx) :
    ∃ t : Fin cfg1.N, (cfg1.win 4).flush t = true ∧ i ∈ ((cfg1.win 4).blk t).view.set := by
  have h0 : (i 0).val < 320000 := (i 0).isLt
  have h1 : (i 1).val < 1 := (i 1).isLt
  let t : Fin cfg1.N := ⟨(i 0).val / 8000, lt_of_lt_of_eq (by omega : (i 0).val / 8000 < 40) N_1.symm⟩
  refine ⟨t, flush1_4 _, ?_⟩
  rw [mem_blk1]
  obtain ⟨-, -, -, -, -, -, -, -, e8, e9⟩ := idx_facts1 t
  have htv : t.val = (i 0).val / 8000 := rfl
  intro a
  match a with
  | ⟨0, _⟩ =>
    show win1_4.index t (0 : Fin 2) * 8000 ≤ (i 0).val ∧ (i 0).val < win1_4.index t (0 : Fin 2) * 8000 + 8000
    omega
  | ⟨1, _⟩ =>
    show win1_4.index t (1 : Fin 2) * 1 ≤ (i 1).val ∧ (i 1).val < win1_4.index t (1 : Fin 2) * 1 + 1
    omega

/-- THE EDGE LAUNCH'S OUTPUT after the launch: the edge scores of the arrays it was launched on. -/
theorem final1 (c : Dev nD) :
    (dat1 V c).arrAt 4 cfg1.N = edgeScores (V c main_arg1) (V c main_v23) (V c main_arg8) (V c main_v24) :=
  (dat1 V c).arrAt_eq_of_cover 4 _ (fun t _ => flushed1 V c t) cover1

end Cert.KernelIdeal.Regions

end
-- ==== Proof.Spec.lean ====
/-
  The gated edge score, index by index.

  Every node `n` has two linear gates of its feature row, `x(n,·)·W_src + b_src` and `x(n,·)·W_dst + b_dst`; every
  edge `e` has one of its own row, `ef(e,·)·W_edge + b_edge`. Edge `e`'s score is the logistic function of
  (the source gate of the node its source index names + the destination gate of the node its destination index names)
  + its own gate, the sum grouped exactly so. An index names a node the way an array lookup `v[idx]` reads it: a
  negative index counts from the end, and the result is clamped into the array.
-/
import Idealize.ShloMosaic.PureOps.Ideal
import Idealize.ShloMosaic.Lib.ValueIdx

noncomputable section

namespace Cert.Spec

open Idealize.ShloMosaic Idealize.ShloMosaic.ValueIdx
open scoped BigOperators

/-- A start index, a negative one counted from the end of the 10000 nodes. -/
def wrap (s : BitVec 32) : BitVec 32 := Scalar.select (IntOp.cmpi .slt s 0#32) (IntOp.addi s 10000#32) s

/-- The node a start index names: wrapped, read as a signed integer, clamped into `[0, 9999]`. -/
def node (s : BitVec 32) : Fin 10000 := ⟨min (wrap s).toInt.toNat (10000 - 1), by omega⟩

/-- A linear gate of row `p` of `x`: the row against the one weight row, plus the bias. -/
def gate {a : ℕ} (x : FVec Ideal ⟨2, ![a, 256]⟩ .f32) (W : FVec Ideal ⟨2, ![1, 256]⟩ .f32)
    (b : FVec Ideal ⟨1, ![1]⟩ .f32) (p : Fin a) : EReal :=
  (∑ k : Fin 256, x (ix2 p k) * W (ix2 (0 : Fin 1) k)) + b (ix1 (0 : Fin 1))

variable (x : FVec Ideal ⟨2, ![10000, 256]⟩ .f32) (ef : FVec Ideal ⟨2, ![320000, 256]⟩ .f32)
  (src dst : IVec ⟨1, ![320000]⟩ 32)
  (Ws : FVec Ideal ⟨2, ![1, 256]⟩ .f32) (bs : FVec Ideal ⟨1, ![1]⟩ .f32)
  (Wd : FVec Ideal ⟨2, ![1, 256]⟩ .f32) (bd : FVec Ideal ⟨1, ![1]⟩ .f32)
  (We : FVec Ideal ⟨2, ![1, 256]⟩ .f32) (be : FVec Ideal ⟨1, ![1]⟩ .f32)

/-- Edge `e`'s score. -/
def outAt (e : Fin 320000) : EReal :=
  Ideal.logistic ((gate x Ws bs (node (src (ix1 e))) + gate x Wd bd (node (dst (ix1 e)))) + gate ef We be e)

/-- The scores as the `[320000, 1]` array both programs return. -/
def out : FVec Ideal ⟨2, ![320000, 1]⟩ .f32 := fun j => outAt x ef src dst Ws bs Wd bd We be ⟨(j 0).val, idx2_lt0 j⟩

theorem out_apply (e : Fin 320000) (u : Fin 1) :
    out x ef src dst Ws bs Wd bd We be (ix2 e u) = outAt x ef src dst Ws bs Wd bd We be e := rfl

end Cert.Spec

end
-- ==== Proof.LibGatherRows.lean ====
/-
  A lookup of rows along axis 0, read at an index.

  What `v[idx]` lowers to when `idx` is a vector of `R` start indices carried as an `[R, 1]` array (the index vector
  on axis 1): for a flat operand `[N]` the result is `[R]`, its entry `r` the operand at start index `idx(r, 0)`; for
  a one-column operand `[N, 1]` (the column an offset axis of size one) the result is `[R, 1]`, its entry `(r, 0)` the
  operand at `(idx(r, 0), 0)`. In both the start index is read as a signed integer and clamped into `[0, N − 1]`.
-/
import Idealize.ShloMosaic.Lib.ValueIdx

noncomputable section

namespace Cert.Lib

open Idealize.ShloMosaic Idealize.ShloMosaic.ValueIdx

variable {α : Type}

/-- The dimension numbers of `v[idx]` for `v : [N]`, `idx : [R, 1]`, result `[R]`. -/
abbrev flatTake (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The flat lookup at `r`: the operand at start index `idx(r, 0)`, signed and clamped. -/
theorem gather_flatTake_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatTake N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (flatTake N R wf).start (ix1 r) idx 0 + (flatTake N R wf).batchCoord (ix1 r) 0
    + (flatTake N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTake N R wf).startIndexMap from List.mem_singleton.mpr rfl)]
  have hsi : (flatTake N R wf).siIdx (ix1 r) ⟨List.idxOf (0 : Fin 1) (flatTake N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of `v[idx]` for a one-column `v : [N, 1]`, `idx : [R, 1]`, result `[R, 1]`. -/
abbrev colTake (N R : Nat) (wf : GatherDims.WF ⟨2, ![N, 1]⟩ ⟨2, ![R, 1]⟩ ⟨2, ![R, 1]⟩ [1] [0] [] [0] [] 1 ![1, 1]) :
    GatherDims ⟨2, ![N, 1]⟩ ⟨2, ![R, 1]⟩ ⟨2, ![R, 1]⟩ where
  offsetDims := [1]
  collapsedSliceDims := [0]
  operandBatchingDims := []
  startIndicesBatchingDims := []
  startIndexMap := [0]
  indexVectorDim := 1
  sliceSizes := ![1, 1]
  wf := wf

/-- The one-column lookup at `(r, u)`: the operand at `(idx(r, 0), 0)`, the start index signed and clamped. -/
theorem gather_colTake_apply {N R w : Nat} (hN : 0 < N)
    (wf : GatherDims.WF ⟨2, ![N, 1]⟩ ⟨2, ![R, 1]⟩ ⟨2, ![R, 1]⟩ [1] [0] [] [0] [] 1 ![1, 1])
    (x : (⟨2, ![N, 1]⟩ : Shape).Idx → α) (idx : IVec ⟨2, ![R, 1]⟩ w) (r : Fin R) (u : Fin 1) :
    Host.gather (colTake N R wf) x idx (ix2 r u)
      = x (ix2 (⟨min (idx (ix2 r (0 : Fin 1))).toInt.toNat (N - 1), by omega⟩ : Fin N) (0 : Fin 1)) := by
  unfold Host.gather
  congr 1
  funext a
  refine Fin.ext ?_
  match a with
  | ⟨0, _⟩ =>
    show (colTake N R wf).start (ix2 r u) idx 0 + (colTake N R wf).batchCoord (ix2 r u) 0
      + (colTake N R wf).offCoord (ix2 r u) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colTake N R wf).startIndexMap from List.mem_singleton.mpr rfl)]
    have hsi : (colTake N R wf).siIdx (ix2 r u) ⟨List.idxOf (0 : Fin 2) (colTake N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have h : (colTake N R wf).start (ix2 r u) idx 1 + (colTake N R wf).batchCoord (ix2 r u) 1
        + (colTake N R wf).offCoord (ix2 r u) 1 < 1 := (colTake N R wf).lt (ix2 r u) idx 1
    show (colTake N R wf).start (ix2 r u) idx 1 + (colTake N R wf).batchCoord (ix2 r u) 1
      + (colTake N R wf).offCoord (ix2 r u) 1 = 0
    omega

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Glue.lean ====
/-
  The host operations around the two launches, read at an index.

  Before the node launch the two weight rows are stacked into `[2, 256]` (row 0 the source weights, row 1 the
  destination weights) and the two biases into a row `[1, 2]`. Between the launches the node gates `[10000, 2]` are cut
  into their two columns, each flattened to `[10000]`; each start index is wrapped (a negative one counts from the end)
  and looked up in its column — the start index read signed and clamped —; the two looked-up gates are added and laid
  out as a column `[320000, 1]`. So the column's entry `e` is the source gate of the node that `src e` names plus the
  destination gate of the node that `dst e` names.
-/
import proofs.«102178_j64407329571242_2_alg».proof.KernelIdeal
import proofs.«102178_j64407329571242_2_alg».proof.Proof.Gen.KernelIdeal
import proofs.«102178_j64407329571242_2_alg».proof.Proof.Spec
import proofs.«102178_j64407329571242_2_alg».proof.Proof.LibGatherRows
import proofs.«102178_j64407329571242_2_alg».proof.Proof.LibColumn
import Idealize.ShloMosaic.Lib.ValueLayout
import Idealize.ShloMosaic.Lib.Pipeline.Value
import Idealize.ShloMosaic.Lib.ValueIdx

noncomputable section

namespace Cert.KernelIdeal.Glue

open Idealize.ShloMosaic Idealize.ShloMosaic.ValueIdx Cert.KernelIdeal Cert.KernelIdeal.Gen

/-! ## The stacked weights and biases -/

/-- The two weight rows stacked. -/
def stackedW (Ws Wd : Vec Ideal S1x256 .f32) : Vec Ideal S2x256 .f32 :=
  concatenate S2x256 0 [⟨S1x256, Ws⟩, ⟨S1x256, Wd⟩] concatenates_S1x256_S1x256_S2x256_d0

/-- The two biases as a row. -/
def stackedB (bs bd : Vec Ideal S1 .f32) : Vec Ideal S1x2 .f32 :=
  shapeCast S1x2 (concatenate S2 0 [⟨S1, bs⟩, ⟨S1, bd⟩] concatenates_S1_S1_S2_d0) shapeCasts_S2_S1x2

theorem stackedW_row0 (Ws Wd : Vec Ideal S1x256 .f32) (k : Fin 256) :
    stackedW Ws Wd (ix2 (0 : Fin 2) k) = Ws (ix2 (0 : Fin 1) k) :=
  concatenate_pair_apply_left (0 : Fin S2x256.rank) Ws Wd concatenates_S1x256_S1x256_S2x256_d0 (ix2 (0 : Fin 2) k) rfl
    (ix2 (0 : Fin 1) k) (fun b => match b with | ⟨0, _⟩ => rfl | ⟨1, _⟩ => rfl)

theorem stackedW_row1 (Ws Wd : Vec Ideal S1x256 .f32) (k : Fin 256) :
    stackedW Ws Wd (ix2 (1 : Fin 2) k) = Wd (ix2 (0 : Fin 1) k) :=
  concatenate_pair_apply_right (0 : Fin S2x256.rank) Ws Wd concatenates_S1x256_S1x256_S2x256_d0 (ix2 (1 : Fin 2) k) rfl rfl
    (ix2 (0 : Fin 1) k) (fun b => match b with | ⟨0, _⟩ => fun h => absurd rfl h | ⟨1, _⟩ => fun _ => rfl) rfl

theorem stackedB_0 (bs bd : Vec Ideal S1 .f32) :
    stackedB bs bd (ix2 (0 : Fin 1) (0 : Fin 2)) = bs (ix1 (0 : Fin 1)) := by
  unfold stackedB
  rw [shapeCast_a_1a_apply]
  exact concatenate_pair_apply_left (0 : Fin S2.rank) bs bd concatenates_S1_S1_S2_d0 (ix1 (0 : Fin 2)) rfl
    (ix1 (0 : Fin 1)) (fun b => match b with | ⟨0, _⟩ => rfl)

theorem stackedB_1 (bs bd : Vec Ideal S1 .f32) :
    stackedB bs bd (ix2 (0 : Fin 1) (1 : Fin 2)) = bd (ix1 (0 : Fin 1)) := by
  unfold stackedB
  rw [shapeCast_a_1a_apply]
  exact concatenate_pair_apply_right (0 : Fin S2.rank) bs bd concatenates_S1_S1_S2_d0 (ix1 (1 : Fin 2)) rfl rfl
    (ix1 (0 : Fin 1)) (fun b => match b with | ⟨0, _⟩ => fun h => absurd rfl h) rfl

/-! ## The node gates' two columns -/

/-- Column 0 of the node gates, flattened. -/
def col0 (G : Vec Ideal S10000x2 .f32) : Vec Ideal S10000 .f32 :=
  shapeCast S10000 (extractStridedSlice S10000x1 ![0, 0] G slices_S10000x2_S10000x1_0_0) shapeCasts_S10000x1_S10000

/-- Column 1 of the node gates, flattened. -/
def col1 (G : Vec Ideal S10000x2 .f32) : Vec Ideal S10000 .f32 :=
  shapeCast S10000 (extractStridedSlice S10000x1 ![0, 1] G slices_S10000x2_S10000x1_0_1) shapeCasts_S10000x1_S10000

/-- A column `[a, 1]` flattened to `[a]` reads, at `i`, the column's entry `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem col0_apply (G : Vec Ideal S10000x2 .f32) (n : Fin 10000) : col0 G (ix1 n) = G (ix2 n (0 : Fin 2)) := by
  unfold col0
  rw [shapeCast_a1_a_apply]
  exact slice2_axis1_apply 0 G slices_S10000x2_S10000x1_0_0 n (0 : Fin 1) (0 : Fin 2) rfl

theorem col1_apply (G : Vec Ideal S10000x2 .f32) (n : Fin 10000) : col1 G (ix1 n) = G (ix2 n (1 : Fin 2)) := by
  unfold col1
  rw [shapeCast_a1_a_apply]
  exact slice2_axis1_apply 1 G slices_S10000x2_S10000x1_0_1 n (0 : Fin 1) (1 : Fin 2) rfl

/-! ## The start indices, wrapped -/

/-- The start indices as the lookup takes them: wrapped, as a column. -/
def wrapped (s : IVec S320000 32) : IVec S320000x1 32 :=
  broadcastInDim S320000x1 ![0] bcast_S320000_S320000x1_0
    (select (cmpi .slt s (broadcastInDim S320000 ![] bcast_S_S320000 (constantI S_ 32 0#32)))
      (addi s (broadcastInDim S320000 ![] bcast_S_S320000 (constantI S_ 32 10000#32))) s)

theorem wrapped_apply (s : IVec S320000 32) (e : Fin 320000) (u : Fin 1) :
    wrapped s (ix2 e u) = Cert.Spec.wrap (s (ix1 e)) := by
  unfold wrapped
  rw [broadcastInDim_apply _ bcast_S320000_S320000x1_0 _ (ix2 e u) (ix1 e) (fun a => match a with
    | ⟨0, _⟩ => by show e.val = if (320000 : Nat) = 1 then 0 else e.val; rw [if_neg (by decide)])]
  rfl

/-! ## The gathered gates -/

/-- The column the edge launch reads: the looked-up source gates plus the looked-up destination gates. -/
def gathered (G : Vec Ideal S10000x2 .f32) (s d : IVec S320000 32) : Vec Ideal S320000x1 .f32 :=
  shapeCast S320000x1 (addf (F := Ideal) (φ := .f32)
    (Host.gather gather_S10000_S320000x1_S320000_n_0_n_n_0_1_1 (col0 G) (wrapped s))
    (Host.gather gather_S10000_S320000x1_S320000_n_0_n_n_0_1_1 (col1 G) (wrapped d))) shapeCasts_S320000_S320000x1

/-- The lookup of a flat array of the 10000 nodes at entry `e`: the array at the start index, signed and clamped. -/
theorem lookup_apply (v : Vec Ideal S10000 .f32) (idx : IVec S320000x1 32) (e : Fin 320000) :
    Host.gather gather_S10000_S320000x1_S320000_n_0_n_n_0_1_1 v idx (ix1 e)
      = v (ix1 ⟨min (idx (ix2 e (0 : Fin 1))).toInt.toNat (10000 - 1), by omega⟩) :=
  Cert.Lib.gather_flatTake_apply (by decide) _ v idx e

/-- Entry `e` of the gathered column: the source gate of the node `s e` names plus the destination gate of the node
    `d e` names. -/
theorem gathered_apply (G : Vec Ideal S10000x2 .f32) (s d : IVec S320000 32) (e : Fin 320000) (u : Fin 1) :
    gathered G s d (ix2 e u)
      = G (ix2 (Cert.Spec.node (s (ix1 e))) (0 : Fin 2)) + G (ix2 (Cert.Spec.node (d (ix1 e))) (1 : Fin 2)) := by
  unfold gathered
  rw [Cert.Lib.shapeCast_a_a1_apply, addf_apply, lookup_apply, lookup_apply]
  have hs : (⟨min (wrapped s (ix2 e (0 : Fin 1))).toInt.toNat (10000 - 1), by omega⟩ : Fin 10000)
      = Cert.Spec.node (s (ix1 e)) :=
    Fin.ext (by
      show min (wrapped s (ix2 e (0 : Fin 1))).toInt.toNat (10000 - 1)
        = min (Cert.Spec.wrap (s (ix1 e))).toInt.toNat (10000 - 1)
      rw [wrapped_apply])
  have hd : (⟨min (wrapped d (ix2 e (0 : Fin 1))).toInt.toNat (10000 - 1), by omega⟩ : Fin 10000)
      = Cert.Spec.node (d (ix1 e)) :=
    Fin.ext (by
      show min (wrapped d (ix2 e (0 : Fin 1))).toInt.toNat (10000 - 1)
        = min (Cert.Spec.wrap (d (ix1 e))).toInt.toNat (10000 - 1)
      rw [wrapped_apply])
  rw [hs, hd, col0_apply, col1_apply]

end Cert.KernelIdeal.Glue

end
-- ==== Proof.KernelValue.lean ====
/-
  The kernel program's result array, read back through its four stretches.

  The program is: three host operations (stack the weights, stack the biases), the node launch, twenty-five host
  operations (the columns, the wrapped start indices, the two lookups, their sum as a column; the edge bias as
  `[1, 1]`), the edge launch. Each stretch's buffers are a function of the previous boundary's, so the result array is
  the edge scores of (the edge features, the gathered gates of the node gates of (the node features, the stacked weights
  and biases), the edge weights, the edge bias) — and that, index by index, is the gated edge score of the ten
  argument arrays.
-/
import proofs.«102178_j64407329571242_2_alg».proof.Proof.Gen.KernelIdeal.Frame
import proofs.«102178_j64407329571242_2_alg».proof.Proof.Regions
import proofs.«102178_j64407329571242_2_alg».proof.Proof.Glue
import proofs.«102178_j64407329571242_2_alg».proof.Proof.Spec

set_option maxRecDepth 16384

noncomputable section

namespace Cert.KernelIdeal.KernelValue

open Idealize.ShloMosaic Idealize.ShloMosaic.TcCoe Idealize.ShloMosaic.ValueIdx
open Idealize.SL Idealize.SL.Sem
open Cert.KernelIdeal Cert.KernelIdeal.Gen
open scoped BigOperators

variable (m : (ℓ : Loc nD τ sig) → Buf (Elt Ideal) ℓ) (ρ : Dev nD → PrngReg)

/-! ## What the node launch is entered with -/

theorem V1_arg0 (c : Dev nD) : V1 m ρ c main_arg0 = m ((c : Thread nD τ).loc main_arg0) := by
  show StableHlo.after hostOps0 (W0 m ρ c) (Proc.devRef .tc main_arg0) = _
  after_results

theorem V1_v0 (c : Dev nD) : V1 m ρ c main_v0
    = Glue.stackedW (m ((c : Thread nD τ).loc main_arg4)) (m ((c : Thread nD τ).loc main_arg6)) := by
  show StableHlo.after hostOps0 (W0 m ρ c) (Proc.devRef .tc main_v0) = _
  after_results; rfl

theorem V1_v2 (c : Dev nD) : V1 m ρ c main_v2
    = Glue.stackedB (m ((c : Thread nD τ).loc main_arg5)) (m ((c : Thread nD τ).loc main_arg7)) := by
  show StableHlo.after hostOps0 (W0 m ρ c) (Proc.devRef .tc main_v2) = _
  after_results; rfl

/-! ## What the node launch leaves, and what the host operations after it read -/

/-- An argument the node launch does not write, after it: as launched. -/
theorem W2_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem W2_arg1 (c : Dev nD) : W2 m ρ c (Proc.devRef .tc main_arg1) = m ((c : Thread nD τ).loc main_arg1) :=
  W2_arg m ρ c main_arg1 (by decide) (by after_results)
theorem W2_arg2 (c : Dev nD) : W2 m ρ c (Proc.devRef .tc main_arg2) = m ((c : Thread nD τ).loc main_arg2) :=
  W2_arg m ρ c main_arg2 (by decide) (by after_results)
theorem W2_arg3 (c : Dev nD) : W2 m ρ c (Proc.devRef .tc main_arg3) = m ((c : Thread nD τ).loc main_arg3) :=
  W2_arg m ρ c main_arg3 (by decide) (by after_results)
theorem W2_arg8 (c : Dev nD) : W2 m ρ c (Proc.devRef .tc main_arg8) = m ((c : Thread nD τ).loc main_arg8) :=
  W2_arg m ρ c main_arg8 (by decide) (by after_results)
theorem W2_arg9 (c : Dev nD) : W2 m ρ c (Proc.devRef .tc main_arg9) = m ((c : Thread nD τ).loc main_arg9) :=
  W2_arg m ρ c main_arg9 (by decide) (by after_results)

/-- The node launch's output after it: the node gates of the node features and the stacked weights and biases. -/
theorem W2_v3 (c : Dev nD) : W2 m ρ c (Proc.devRef .tc main_v3)
    = Regions.nodeGates (m ((c : Thread nD τ).loc main_arg0))
        (Glue.stackedW (m ((c : Thread nD τ).loc main_arg4)) (m ((c : Thread nD τ).loc main_arg6)))
        (Glue.stackedB (m ((c : Thread nD τ).loc main_arg5)) (m ((c : Thread nD τ).loc main_arg7))) := by
  refine (W2_arr m ρ c 3).trans ?_
  rw [Regions.final0 (V1 m ρ) c, V1_arg0, V1_v0, V1_v2]

/-! ## What the edge launch is entered with -/

theorem V3_arg1 (c : Dev nD) : V3 m ρ c main_arg1 = m ((c : Thread nD τ).loc main_arg1) := by
  show StableHlo.after hostOps1 (W2 m ρ c) (Proc.devRef .tc main_arg1) = _
  after_results; exact W2_arg1 m ρ c

theorem V3_arg8 (c : Dev nD) : V3 m ρ c main_arg8 = m ((c : Thread nD τ).loc main_arg8) := by
  show StableHlo.after hostOps1 (W2 m ρ c) (Proc.devRef .tc main_arg8) = _
  after_results; exact W2_arg8 m ρ c

theorem V3_v24 (c : Dev nD) : V3 m ρ c main_v24
    = shapeCast S1x1 (m ((c : Thread nD τ).loc main_arg9)) shapeCasts_S1_S1x1 := by
  show StableHlo.after hostOps1 (W2 m ρ c) (Proc.devRef .tc main_v24) = _
  after_results; rw [W2_arg9]; rfl

theorem V3_v23 (c : Dev nD) : V3 m ρ c main_v23
    = Glue.gathered (W2 m ρ c (Proc.devRef .tc main_v3)) (m ((c : Thread nD τ).loc main_arg2))
        (m ((c : Thread nD τ).loc main_arg3)) := by
  show StableHlo.after hostOps1 (W2 m ρ c) (Proc.devRef .tc main_v23) = _
  after_results; rw [W2_arg2, W2_arg3]; rfl

/-! ## The result -/

/-- Column `j` of the node gates at node `n` is the gate of row `n` with weight row `j` and bias `j`. -/
theorem nodeGates_col0 (x : Vec Ideal S10000x256 .f32) (Ws Wd : Vec Ideal S1x256 .f32) (bs bd : Vec Ideal S1 .f32)
    (n : Fin 10000) :
    Regions.nodeGates x (Glue.stackedW Ws Wd) (Glue.stackedB bs bd) (ix2 n (0 : Fin 2)) = Cert.Spec.gate x Ws bs n := by
  rw [Regions.nodeGates_apply, Glue.stackedB_0]
  unfold Cert.Spec.gate
  exact congrArg (· + _) (Finset.sum_congr rfl fun k _ => by rw [Glue.stackedW_row0])

theorem nodeGates_col1 (x : Vec Ideal S10000x256 .f32) (Ws Wd : Vec Ideal S1x256 .f32) (bs bd : Vec Ideal S1 .f32)
    (n : Fin 10000) :
    Regions.nodeGates x (Glue.stackedW Ws Wd) (Glue.stackedB bs bd) (ix2 n (1 : Fin 2)) = Cert.Spec.gate x Wd bd n := by
  rw [Regions.nodeGates_apply, Glue.stackedB_1]
  unfold Cert.Spec.gate
  exact congrArg (· + _) (Finset.sum_congr rfl fun k _ => by rw [Glue.stackedW_row1])

/-- THE RESULT ARRAY after the program: the gated edge scores of the ten arguments as launched. -/
theorem W4_v25 (c : Dev nD) : W4 m ρ c (Proc.devRef .tc main_v25)
    = Cert.Spec.out (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9)) := by
  refine (W4_arr m ρ c 4).trans ?_
  rw [Regions.final1 (V3 m ρ) c, V3_arg1, V3_arg8, V3_v24, V3_v23, W2_v3]
  funext i
  obtain ⟨e, u, rfl⟩ : ∃ (e : Fin 320000) (u : Fin 1), i = ix2 e u := ⟨i 0, i 1, eq_ix2 (n0 := 320000) (n1 := 1) i⟩
  rw [Regions.edgeScores_apply, Cert.Spec.out_apply, Glue.gathered_apply, nodeGates_col0, nodeGates_col1,
    Cert.Lib.shapeCast_a_a1_apply]
  rfl

end Cert.KernelIdeal.KernelValue

end
-- ==== Proof.KernelRun.lean ====
/-
  The kernel program's run with its result named.

  Every weakly fair execution of the program ends with every buffer that outlives the launches at the contents of the
  last boundary of its four stretches (host operations, node launch, host operations, edge launch). Read at the result
  buffer that is the gated edge scores of the arguments; read at an argument it is the argument as launched.
-/
import proofs.«102178_j64407329571242_2_alg».proof.Proof.Gen.KernelIdeal.Frame
import proofs.«102178_j64407329571242_2_alg».proof.Proof.KernelValue

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that outlives the
    launches at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.KernelRun

namespace Cert.KernelIdeal.KernelRun

open Idealize.ShloMosaic Idealize.ShloMosaic.TcCoe Idealize.SL.Sem
open Cert.KernelIdeal Cert.KernelIdeal.Gen

/-- THE RUN, READ: at the extended reals every weakly fair execution of the program ends with the result array at the
    gated edge scores of the arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v25)
        = Cert.Spec.out (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
            (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c _ (mem_uc main_v25 (by decide))).trans (KernelValue.W4_v25 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_boundary m ρ)

end Cert.KernelIdeal.KernelRun

end
-- ==== Proof.RefIsSpec.lean ====
/-
  The reference program computes the gated edge score.

  Read one index at a time, the reference program's result at edge `e` is the logistic function of (the source gate
  of the node the wrapped, clamped source index names + the destination gate of the node the destination index names)
  + the edge's own gate: the function `Cert.Spec.out`. The two lookups `v[idx]` are read by the one-column lookup
  lemma; each gate is a sum over the 256 features of a row against the one weight row, plus the bias; and
  `1 / (1 + exp (-z))` is the logistic function by its definition on the extended reals.
-/
import proofs.«102178_j64407329571242_2_alg».proof.Proof.Gen.ReferenceIdeal.Read
import proofs.«102178_j64407329571242_2_alg».proof.Proof.Spec
import proofs.«102178_j64407329571242_2_alg».proof.Proof.LibGatherRows

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The pattern of `1.0` denotes `1`. -/
theorem ofBits_one : Ideal.ofBits .f32 0x3F800000#32 = 1 := by
  simp [Ideal.ofBits, Ideal.ieee, -EReal.coe_mul]; norm_num

/-! ## The start indices, wrapped -/

/-- The source start index of edge `e`, a negative one counted from the end. -/
theorem wrap_src (x2 : (⟨S320000, .i32⟩ : BufTy).Contents (Elt Ideal)) (e : Fin 320000) :
    val_main_v15 (F := Ideal) x2 (ix2 e (0 : Fin 1)) = Cert.Spec.wrap (x2 (ix1 e)) := by
  have hi : idx_main_v15 (ix2 e (0 : Fin 1)) = ix1 e :=
    funext fun a => Fin.ext (by match a with | ⟨0, _⟩ => rfl)
  rw [val_main_v15_apply, hi, val_main_v14_apply, val_main_v11_apply, val_main_v13_apply, val_main_v10_apply,
    val_main_v12_apply, val_main_c_apply, val_main_c_0_apply]
  rfl

/-- The destination start index of edge `e`, a negative one counted from the end. -/
theorem wrap_dst (x3 : (⟨S320000, .i32⟩ : BufTy).Contents (Elt Ideal)) (e : Fin 320000) :
    val_main_v22 (F := Ideal) x3 (ix2 e (0 : Fin 1)) = Cert.Spec.wrap (x3 (ix1 e)) := by
  have hi : idx_main_v22 (ix2 e (0 : Fin 1)) = ix1 e :=
    funext fun a => Fin.ext (by match a with | ⟨0, _⟩ => rfl)
  rw [val_main_v22_apply, hi, val_main_v21_apply, val_main_v18_apply, val_main_v20_apply, val_main_v17_apply,
    val_main_v19_apply, val_main_c_1_apply, val_main_c_2_apply]
  rfl

/-! ## The three linear gates -/

/-- The source gate of node `n`: its feature row against the source weight row, plus the source bias. -/
theorem gate_src (x0 : (⟨S10000x256, .f32⟩ : BufTy).Contents (Elt Ideal)) (x4 : (⟨S1x256, .f32⟩ : BufTy).Contents (Elt Ideal)) (x5 : (⟨S1, .f32⟩ : BufTy).Contents (Elt Ideal)) (n : Fin 10000) :
    val_main_v4 (F := Ideal) x0 x4 x5 (ix2 n (0 : Fin 1)) = Cert.Spec.gate x0 x4 x5 n := by
  rw [val_main_v4_apply, val_main_v1_apply, val_main_v3_apply, val_main_v2_apply, Ideal.addf_def]
  unfold Cert.Spec.gate
  congr 1
  · refine Finset.sum_congr rfl fun k _ => ?_
    have h1 : lidx_main_v1 (ix2 n (0 : Fin 1)) k = ix2 n k :=
      funext fun a => Fin.ext (by match a with | ⟨0, _⟩ => rfl | ⟨1, _⟩ => rfl)
    have h2 : idx_main_v0 (ridx_main_v1 (ix2 n (0 : Fin 1)) k) = ix2 (0 : Fin 1) k :=
      funext fun a => Fin.ext (by match a with | ⟨0, _⟩ => rfl | ⟨1, _⟩ => rfl)
    rw [val_main_v0_apply, h1, h2]
  · have h3 : idx_main_v2 (idx_main_v3 (ix2 n (0 : Fin 1))) = ix1 (0 : Fin 1) :=
      funext fun a => Fin.ext (by match a with | ⟨0, _⟩ => rfl)
    rw [h3]

/-- The destination gate of node `n`: its feature row against the destination weight row, plus the destination bias. -/
theorem gate_dst (x0 : (⟨S10000x256, .f32⟩ : BufTy).Contents (Elt Ideal)) (x6 : (⟨S1x256, .f32⟩ : BufTy).Contents (Elt Ideal)) (x7 : (⟨S1, .f32⟩ : BufTy).Contents (Elt Ideal)) (n : Fin 10000) :
    val_main_v9 (F := Ideal) x0 x6 x7 (ix2 n (0 : Fin 1)) = Cert.Spec.gate x0 x6 x7 n := by
  rw [val_main_v9_apply, val_main_v6_apply, val_main_v8_apply, val_main_v7_apply, Ideal.addf_def]
  unfold Cert.Spec.gate
  congr 1
  · refine Finset.sum_congr rfl fun k _ => ?_
    have h1 : lidx_main_v6 (ix2 n (0 : Fin 1)) k = ix2 n k :=
      funext fun a => Fin.ext (by match a with | ⟨0, _⟩ => rfl | ⟨1, _⟩ => rfl)
    have h2 : idx_main_v5 (ridx_main_v6 (ix2 n (0 : Fin 1)) k) = ix2 (0 : Fin 1) k :=
      funext fun a => Fin.ext (by match a with | ⟨0, _⟩ => rfl | ⟨1, _⟩ => rfl)
    rw [val_main_v5_apply, h1, h2]
  · have h3 : idx_main_v7 (idx_main_v8 (ix2 n (0 : Fin 1))) = ix1 (0 : Fin 1) :=
      funext fun a => Fin.ext (by match a with | ⟨0, _⟩ => rfl)
    rw [h3]

/-- The gate of edge `e`: its feature row against the edge weight row, plus the edge bias. -/
theorem gate_edge (x1 : (⟨S320000x256, .f32⟩ : BufTy).Contents (Elt Ideal)) (x8 : (⟨S1x256, .f32⟩ : BufTy).Contents (Elt Ideal)) (x9 : (⟨S1, .f32⟩ : BufTy).Contents (Elt Ideal)) (e : Fin 320000) (u : Fin 1) :
    val_main_v29 (F := Ideal) x1 x8 x9 (ix2 e u) = Cert.Spec.gate x1 x8 x9 e := by
  obtain rfl : u = 0 := Subsingleton.elim _ _
  rw [val_main_v29_apply, val_main_v26_apply, val_main_v28_apply, val_main_v27_apply, Ideal.addf_def]
  unfold Cert.Spec.gate
  congr 1
  · refine Finset.sum_congr rfl fun k _ => ?_
    have h1 : lidx_main_v26 (ix2 e (0 : Fin 1)) k = ix2 e k :=
      funext fun a => Fin.ext (by match a with | ⟨0, _⟩ => rfl | ⟨1, _⟩ => rfl)
    have h2 : idx_main_v25 (ridx_main_v26 (ix2 e (0 : Fin 1)) k) = ix2 (0 : Fin 1) k :=
      funext fun a => Fin.ext (by match a with | ⟨0, _⟩ => rfl | ⟨1, _⟩ => rfl)
    rw [val_main_v25_apply, h1, h2]
  · have h3 : idx_main_v27 (idx_main_v28 (ix2 e (0 : Fin 1))) = ix1 (0 : Fin 1) :=
      funext fun a => Fin.ext (by match a with | ⟨0, _⟩ => rfl)
    rw [h3]

/-! ## The two lookups -/

/-- The source lookup at edge `e`: the source gate of the node the source index names. -/
theorem take_src (x0 : (⟨S10000x256, .f32⟩ : BufTy).Contents (Elt Ideal)) (x2 : (⟨S320000, .i32⟩ : BufTy).Contents (Elt Ideal)) (x4 : (⟨S1x256, .f32⟩ : BufTy).Contents (Elt Ideal)) (x5 : (⟨S1, .f32⟩ : BufTy).Contents (Elt Ideal)) (e : Fin 320000) (u : Fin 1) :
    val_main_v16 (F := Ideal) x0 x2 x4 x5 (ix2 e u) = Cert.Spec.gate x0 x4 x5 (Cert.Spec.node (x2 (ix1 e))) := by
  unfold val_main_v16
  refine (Cert.Lib.gather_colTake_apply (N := 10000) (R := 320000) (by decide)
    Facts₀.gather_S10000x1_S320000x1_S320000x1_1_0_n_n_0_1_11_wf
    (val_main_v4 (F := Ideal) x0 x4 x5) (val_main_v15 (F := Ideal) x2) e u).trans ?_
  have hn : (⟨min (val_main_v15 (F := Ideal) x2 (ix2 e (0 : Fin 1))).toInt.toNat (10000 - 1), by omega⟩ : Fin 10000)
      = Cert.Spec.node (x2 (ix1 e)) :=
    Fin.ext (by
      show min (val_main_v15 (F := Ideal) x2 (ix2 e (0 : Fin 1))).toInt.toNat (10000 - 1)
        = min (Cert.Spec.wrap (x2 (ix1 e))).toInt.toNat (10000 - 1)
      rw [wrap_src])
  exact (congrArg (fun n => val_main_v4 (F := Ideal) x0 x4 x5 (ix2 n (0 : Fin 1))) hn).trans (gate_src x0 x4 x5 _)

/-- The destination lookup at edge `e`: the destination gate of the node the destination index names. -/
theorem take_dst (x0 : (⟨S10000x256, .f32⟩ : BufTy).Contents (Elt Ideal)) (x3 : (⟨S320000, .i32⟩ : BufTy).Contents (Elt Ideal)) (x6 : (⟨S1x256, .f32⟩ : BufTy).Contents (Elt Ideal)) (x7 : (⟨S1, .f32⟩ : BufTy).Contents (Elt Ideal)) (e : Fin 320000) (u : Fin 1) :
    val_main_v23 (F := Ideal) x0 x3 x6 x7 (ix2 e u) = Cert.Spec.gate x0 x6 x7 (Cert.Spec.node (x3 (ix1 e))) := by
  unfold val_main_v23
  refine (Cert.Lib.gather_colTake_apply (N := 10000) (R := 320000) (by decide)
    Facts₀.gather_S10000x1_S320000x1_S320000x1_1_0_n_n_0_1_11_wf
    (val_main_v9 (F := Ideal) x0 x6 x7) (val_main_v22 (F := Ideal) x3) e u).trans ?_
  have hn : (⟨min (val_main_v22 (F := Ideal) x3 (ix2 e (0 : Fin 1))).toInt.toNat (10000 - 1), by omega⟩ : Fin 10000)
      = Cert.Spec.node (x3 (ix1 e)) :=
    Fin.ext (by
      show min (val_main_v22 (F := Ideal) x3 (ix2 e (0 : Fin 1))).toInt.toNat (10000 - 1)
        = min (Cert.Spec.wrap (x3 (ix1 e))).toInt.toNat (10000 - 1)
      rw [wrap_dst])
  exact (congrArg (fun n => val_main_v9 (F := Ideal) x0 x6 x7 (ix2 n (0 : Fin 1))) hn).trans (gate_dst x0 x6 x7 _)

/-! ## The reference is the specification -/

theorem ref_is_spec (x0 : (⟨S10000x256, .f32⟩ : BufTy).Contents (Elt Ideal)) (x1 : (⟨S320000x256, .f32⟩ : BufTy).Contents (Elt Ideal)) (x2 x3 : (⟨S320000, .i32⟩ : BufTy).Contents (Elt Ideal)) (x4 : (⟨S1x256, .f32⟩ : BufTy).Contents (Elt Ideal)) (x5 : (⟨S1, .f32⟩ : BufTy).Contents (Elt Ideal)) (x6 : (⟨S1x256, .f32⟩ : BufTy).Contents (Elt Ideal)) (x7 : (⟨S1, .f32⟩ : BufTy).Contents (Elt Ideal)) (x8 : (⟨S1x256, .f32⟩ : BufTy).Contents (Elt Ideal)) (x9 : (⟨S1, .f32⟩ : BufTy).Contents (Elt Ideal)) :
    Cert.ReferenceIdeal.Read.val_main_v36 (F := Ideal) x0 x1 x2 x3 x4 x5 x6 x7 x8 x9 = Cert.Spec.out x0 x1 x2 x3 x4 x5 x6 x7 x8 x9 := by
  funext j
  obtain ⟨e, u, rfl⟩ : ∃ (e : Fin 320000) (u : Fin 1), j = ix2 e u := ⟨j 0, j 1, eq_ix2 j⟩
  rw [Cert.Spec.out_apply]
  unfold Cert.Spec.outAt
  rw [val_main_v36_apply, val_main_v35_apply, val_main_cst_3_apply, val_main_v34_apply, val_main_v33_apply,
    val_main_cst_apply, val_main_v32_apply, val_main_v31_apply, val_main_v30_apply, val_main_v24_apply,
    take_src, take_dst, gate_edge, Ideal.ofBits_def, ofBits_one]
  rfl

end Cert.ReferenceIdeal.RefValue

end
-- ==== Proof.lean ====
/-
  The gated edge score of a graph layer: a kernel program of two launches against its plain reference, equal on the
  extended reals.

  For 10000 nodes with 256 features and 320000 edges with 256 features, both programs return, for edge `e`,
      logistic( (x[src e]·W_src + b_src  +  x[dst e]·W_dst + b_dst)  +  (ef[e]·W_edge + b_edge) ),
  a start index read the way an array lookup reads it (a negative one counts from the end; the result clamped into the
  array). The kernel program stacks the two node weight rows, computes both node gates in one launch as a
  `[10000, 256] × [256, 2]` product, looks the two columns up on the host, adds them, and in a second launch over 40
  blocks of 8000 edges adds each edge's own gate and applies the logistic function. The reference computes three separate
  products, looks the node gates up, adds in the same grouping and spells the logistic function `1 / (1 + exp(-z))`,
  which on the extended reals is the logistic function by definition. Narrowing to a shorter float format is the
  identity on the extended reals, a product into a zero accumulator is the plain sum of products, and the sums are
  grouped alike on both sides, so the two results are one function of the arguments (`Cert.Spec.out`) and no finiteness
  of the inputs is used.

  The three frames: the two kernel programs' are the generated ones; the reference's is its generated run with the
  result dropped. The idealization rewrote nothing, so there is nothing to preserve. The value claim states both runs
  with the specification as the common result: the kernel's run read through its four stretches (KernelRun), the
  reference's run read one operation at a time (RefIsSpec).
-/
import proofs.«102178_j64407329571242_2_alg».proof.Defs
import proofs.«102178_j64407329571242_2_alg».proof.Proof.Gen.Kernel
import proofs.«102178_j64407329571242_2_alg».proof.Proof.Gen.Kernel.Skeleton
import proofs.«102178_j64407329571242_2_alg».proof.Proof.Gen.Kernel.Launch
import proofs.«102178_j64407329571242_2_alg».proof.Proof.Gen.Kernel.Points
import proofs.«102178_j64407329571242_2_alg».proof.Proof.Gen.Kernel.Frame
import proofs.«102178_j64407329571242_2_alg».proof.Proof.Gen.KernelIdeal
import proofs.«102178_j64407329571242_2_alg».proof.Proof.Gen.KernelIdeal.Skeleton
import proofs.«102178_j64407329571242_2_alg».proof.Proof.Gen.KernelIdeal.Launch
import proofs.«102178_j64407329571242_2_alg».proof.Proof.Gen.KernelIdeal.Points
import proofs.«102178_j64407329571242_2_alg».proof.Proof.Gen.KernelIdeal.Frame
import proofs.«102178_j64407329571242_2_alg».proof.Proof.Gen.ReferenceIdeal
import proofs.«102178_j64407329571242_2_alg».proof.Proof.Gen.ReferenceIdeal.Run
import proofs.«102178_j64407329571242_2_alg».proof.Proof.Gen.ReferenceIdeal.Read
import proofs.«102178_j64407329571242_2_alg».proof.Proof.Gen.Pre_finite_inputs
import proofs.«102178_j64407329571242_2_alg».proof.Proof.KernelRun
import proofs.«102178_j64407329571242_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the gated edge scores of the arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v36_eq, Cert.ReferenceIdeal.RefValue.ref_is_spec,
    h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
